-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x4096 : Shape := ⟨3, ![16, 128, 4096]⟩
abbrev S16x128x16384 : Shape := ⟨3, ![16, 128, 16384]⟩
abbrev S16x128x8192 : Shape := ⟨3, ![16, 128, 8192]⟩
abbrev S_ : Shape := ⟨0, ![]⟩

class Facts : Prop where
  bcast_S_S16x128x4096 : S_.BroadcastsInDim S16x128x4096 (![] : Fin 0 → Fin S16x128x4096.rank)
  reducesTo_S16x128x4096_S_d0_1_2 : S16x128x4096.ReducesTo [0, 1, 2] S_
  h_S_ : 0 < S_.numel
  bcast_S_S16x128x16384 : S_.BroadcastsInDim S16x128x16384 (![] : Fin 0 → Fin S16x128x16384.rank)
  reducesTo_S16x128x16384_S_d0_1_2 : S16x128x16384.ReducesTo [0, 1, 2] S_
  bcast_S_S16x128x8192 : S_.BroadcastsInDim S16x128x8192 (![] : Fin 0 → Fin S16x128x8192.rank)
  reducesTo_S16x128x8192_S_d0_1_2 : S16x128x8192.ReducesTo [0, 1, 2] S_

variable [Facts]

def fn_part1 {F : FTy → Type} [FloatOps F] (main_v13 : IVec S_ 1) (main_v16 : IVec S16x128x4096 1) : IVec S_ 1 :=
  let main_c_5 : IVec S_ 1 := constantI S_ 1 1#1
  let main_v17 : IVec S_ 1 := (fun x v => Host.reduce IntOp.andi x v reducesTo_S16x128x4096_S_d0_1_2 h_S_) main_v16 main_c_5
  let main_v18 : IVec S_ 1 := andi main_v13 main_v17
  main_v18

def fn {F : FTy → Type} [FloatOps F] (main_arg0 : FVec F S16x128x4096 .f32) (main_arg1 : FVec F S16x128x16384 .f32) (main_arg2 : FVec F S16x128x8192 .f32) (main_arg3 : FVec F S16x128x4096 .f32) : IVec S_ 1 :=
  let main_v0 : FVec F S16x128x4096 .f32 := Host.absf main_arg0
  let main_cst : FVec F S_ .f32 := constant S_ .f32 0x7F800000#32
  let main_v1 : FVec F S16x128x4096 .f32 := broadcastInDim S16x128x4096 ![] bcast_S_S16x128x4096 main_cst
  let main_v2 : IVec S16x128x4096 1 := cmpf .olt main_v0 main_v1
  let main_c : IVec S_ 1 := constantI S_ 1 1#1
  let main_v3 : IVec S_ 1 := (fun x v => Host.reduce IntOp.andi x v reducesTo_S16x128x4096_S_d0_1_2 h_S_) main_v2 main_c
  let main_v4 : FVec F S16x128x16384 .f32 := Host.absf main_arg1
  let main_cst_0 : FVec F S_ .f32 := constant S_ .f32 0x7F800000#32
  let main_v5 : FVec F S16x128x16384 .f32 := broadcastInDim S16x128x16384 ![] bcast_S_S16x128x16384 main_cst_0
  let main_v6 : IVec S16x128x16384 1 := cmpf .olt main_v4 main_v5
  let main_c_1 : IVec S_ 1 := constantI S_ 1 1#1
  let main_v7 : IVec S_ 1 := (fun x v => Host.reduce IntOp.andi x v reducesTo_S16x128x16384_S_d0_1_2 h_S_) main_v6 main_c_1
  let main_v8 : IVec S_ 1 := andi main_v3 main_v7
  let main_v9 : FVec F S16x128x8192 .f32 := Host.absf main_arg2
  let main_cst_2 : FVec F S_ .f32 := constant S_ .f32 0x7F800000#32
  let main_v10 : FVec F S16x128x8192 .f32 := broadcastInDim S16x128x8192 ![] bcast_S_S16x128x8192 main_cst_2
  let main_v11 : IVec S16x128x8192 1 := cmpf .olt main_v9 main_v10
  let main_c_3 : IVec S_ 1 := constantI S_ 1 1#1
  let main_v12 : IVec S_ 1 := (fun x v => Host.reduce IntOp.andi x v reducesTo_S16x128x8192_S_d0_1_2 h_S_) main_v11 main_c_3
  let main_v13 : IVec S_ 1 := andi main_v8 main_v12
  let main_v14 : FVec F S16x128x4096 .f32 := Host.absf main_arg3
  let main_cst_4 : FVec F S_ .f32 := constant S_ .f32 0x7F800000#32
  let main_v15 : FVec F S16x128x4096 .f32 := broadcastInDim S16x128x4096 ![] bcast_S_S16x128x4096 main_cst_4
  let main_v16 : IVec S16x128x4096 1 := cmpf .olt main_v14 main_v15
  fn_part1 (F := F) main_v13 main_v16
-- ==== Kernel.lean ====
abbrev S16x128x4096 : Shape := ⟨3, ![16, 128, 4096]⟩
abbrev S16x128x16384 : Shape := ⟨3, ![16, 128, 16384]⟩
abbrev S16x128x8192 : Shape := ⟨3, ![16, 128, 8192]⟩
abbrev S16x128x32768 : Shape := ⟨3, ![16, 128, 32768]⟩
abbrev S1x32x4096 : Shape := ⟨3, ![1, 32, 4096]⟩
abbrev S1x32x8192 : Shape := ⟨3, ![1, 32, 8192]⟩
abbrev S1x32x16384 : Shape := ⟨3, ![1, 32, 16384]⟩
abbrev S1x32x32768 : Shape := ⟨3, ![1, 32, 32768]⟩
abbrev S32x8192 : Shape := ⟨2, ![32, 8192]⟩
abbrev S32x16384 : Shape := ⟨2, ![32, 16384]⟩
abbrev S32x4096 : Shape := ⟨2, ![32, 4096]⟩
abbrev S32x4096x1 : Shape := ⟨3, ![32, 4096, 1]⟩
abbrev S32x4096x2 : Shape := ⟨3, ![32, 4096, 2]⟩
abbrev S32x8192x1 : Shape := ⟨3, ![32, 8192, 1]⟩
abbrev S32x8192x2 : Shape := ⟨3, ![32, 8192, 2]⟩
abbrev S32x16384x1 : Shape := ⟨3, ![32, 16384, 1]⟩
abbrev S32x16384x2 : Shape := ⟨3, ![32, 16384, 2]⟩
abbrev S32x32768 : Shape := ⟨2, ![32, 32768]⟩

abbrev nBuf : Space → Nat
  | .hbm => 5
  | .vmem => 12
  | .smem => 0
  | _ => 0

abbrev bufTy : (tb : Table) → Fin (tcTables nBuf tb) → BufTy
  | .hbm, ⟨0, _⟩ => ⟨S16x128x4096, .f32⟩
  | .hbm, ⟨1, _⟩ => ⟨S16x128x16384, .f32⟩
  | .hbm, ⟨2, _⟩ => ⟨S16x128x8192, .f32⟩
  | .hbm, ⟨3, _⟩ => ⟨S16x128x4096, .f32⟩
  | .hbm, ⟨4, _⟩ => ⟨S16x128x32768, .f32⟩
  | .local _ .vmem, ⟨0, _⟩ => ⟨S1x32x4096, .f32⟩
  | .local _ .vmem, ⟨1, _⟩ => ⟨S1x32x4096, .f32⟩
  | .local _ .vmem, ⟨2, _⟩ => ⟨S1x32x4096, .f32⟩
  | .local _ .vmem, ⟨3, _⟩ => ⟨S1x32x4096, .f32⟩
  | .local _ .vmem, ⟨4, _⟩ => ⟨S1x32x8192, .f32⟩
  | .local _ .vmem, ⟨5, _⟩ => ⟨S1x32x8192, .f32⟩
  | .local _ .vmem, ⟨6, _⟩ => ⟨S1x32x16384, .f32⟩
  | .local _ .vmem, ⟨7, _⟩ => ⟨S1x32x16384, .f32⟩
  | .local _ .vmem, ⟨8, _⟩ => ⟨S1x32x32768, .f32⟩
  | .local _ .vmem, ⟨9, _⟩ => ⟨S1x32x32768, .f32⟩
  | .local _ .vmem, ⟨10, _⟩ => ⟨S32x8192, .f32⟩
  | .local _ .vmem, ⟨11, _⟩ => ⟨S32x16384, .f32⟩
  | _, _ => ⟨S16x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  shapeCasts_S32x4096_S32x4096x1 : S32x4096.ShapeCasts S32x4096x1
  concatenates_S32x4096x1_S32x4096x1_S32x4096x2_d2 : Shape.Concatenates [S32x4096x1, S32x4096x1] S32x4096x2 2
  shapeCasts_S32x4096x2_S32x8192 : S32x4096x2.ShapeCasts S32x8192
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S1x32x8192_S1x32x8192_0_0_0 : ∀ a, (![0, 0, 0] : Fin 3 → Nat) a + S1x32x8192.size a ≤ S1x32x8192.size a
  h_S1x32x8192 : 0 < S1x32x8192.numel
  shapeCasts_S1x32x8192_S32x8192 : S1x32x8192.ShapeCasts S32x8192
  shapeCasts_S32x8192_S32x8192x1 : S32x8192.ShapeCasts S32x8192x1
  concatenates_S32x8192x1_S32x8192x1_S32x8192x2_d2 : Shape.Concatenates [S32x8192x1, S32x8192x1] S32x8192x2 2
  shapeCasts_S32x8192x2_S32x16384 : S32x8192x2.ShapeCasts S32x16384
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S1x32x16384_S1x32x16384_0_0_0 : ∀ a, (![0, 0, 0] : Fin 3 → Nat) a + S1x32x16384.size a ≤ S1x32x16384.size a
  h_S1x32x16384 : 0 < S1x32x16384.numel
  shapeCasts_S1x32x16384_S32x16384 : S1x32x16384.ShapeCasts S32x16384
  shapeCasts_S32x16384_S32x16384x1 : S32x16384.ShapeCasts S32x16384x1
  concatenates_S32x16384x1_S32x16384x1_S32x16384x2_d2 : Shape.Concatenates [S32x16384x1, S32x16384x1] S32x16384x2 2
  shapeCasts_S32x16384x2_S32x32768 : S32x16384x2.ShapeCasts S32x32768
  inb_S1x32x32768_S1x32x32768_0_0_0 : ∀ a, (![0, 0, 0] : Fin 3 → Nat) a + S1x32x32768.size a ≤ S1x32x32768.size a
  h_S1x32x32768 : 0 < S1x32x32768.numel
  shapeCasts_S1x32x32768_S32x32768 : S1x32x32768.ShapeCasts S32x32768
  shapeCasts_S32x32768_S1x32x32768 : S32x32768.ShapeCasts S1x32x32768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4096.size a ≤ S16x128x4096.size a
  hwx0_0 : ∀ i : grid0.Coords, EltTy.bits .f32 = 32 ∨ (Rect.block (s := S16x128x4096) S1x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4096.size a ≤ S16x128x4096.size a
  hwx0_1 : ∀ i : grid0.Coords, EltTy.bits .f32 = 32 ∨ (Rect.block (s := S16x128x4096) S1x32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x8192.size a ≤ S16x128x8192.size a
  hwx0_2 : ∀ i : grid0.Coords, EltTy.bits .f32 = 32 ∨ (Rect.block (s := S16x128x8192) S1x32x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x16384.size a ≤ S16x128x16384.size a
  hwx0_3 : ∀ i : grid0.Coords, EltTy.bits .f32 = 32 ∨ (Rect.block (s := S16x128x16384) S1x32x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x32768.size a ≤ S16x128x32768.size a
  hwx0_4 : ∀ i : grid0.Coords, EltTy.bits .f32 = 32 ∨ (Rect.block (s := S16x128x32768) S1x32x32768.size (cc0_transform_4 i) (hinb0_4 i)).WholeWords (EltTy.packing .f32)

variable [Facts₀]

abbrev win0_0 : Pipeline.Window sig grid0 :=
  Pipeline.Window.ofSpec (Memref.whole main_arg0) S1x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x32x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32x32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x128x4096 : Shape := ⟨3, ![16, 128, 4096]⟩
abbrev S16x128x16384 : Shape := ⟨3, ![16, 128, 16384]⟩
abbrev S16x128x8192 : Shape := ⟨3, ![16, 128, 8192]⟩
abbrev S_ : Shape := ⟨0, ![]⟩
abbrev S16x128x4096x1 : Shape := ⟨4, ![16, 128, 4096, 1]⟩
abbrev S16x128x4096x2 : Shape := ⟨4, ![16, 128, 4096, 2]⟩
abbrev S16x128x8192x1 : Shape := ⟨4, ![16, 128, 8192, 1]⟩
abbrev S16x128x8192x2 : Shape := ⟨4, ![16, 128, 8192, 2]⟩
abbrev S16x128x16384x1 : Shape := ⟨4, ![16, 128, 16384, 1]⟩
abbrev S16x128x16384x2 : Shape := ⟨4, ![16, 128, 16384, 2]⟩
abbrev S16x128x32768 : Shape := ⟨3, ![16, 128, 32768]⟩

abbrev nBuf : Space → Nat
  | .hbm => 40
  | .vmem => 0
  | .smem => 0
  | _ => 0

abbrev bufTy : (tb : Table) → Fin (tcTables nBuf tb) → BufTy
  | .hbm, ⟨0, _⟩ => ⟨S16x128x4096, .f32⟩
  | .hbm, ⟨1, _⟩ => ⟨S16x128x16384, .f32⟩
  | .hbm, ⟨2, _⟩ => ⟨S16x128x8192, .f32⟩
  | .hbm, ⟨3, _⟩ => ⟨S16x128x4096, .f32⟩
  | .hbm, ⟨4, _⟩ => ⟨S16x128x4096, .f32⟩
  | .hbm, ⟨5, _⟩ => ⟨S_, .f32⟩
  | .hbm, ⟨6, _⟩ => ⟨S16x128x4096, .f32⟩
  | .hbm, ⟨7, _⟩ => ⟨S16x128x4096, .f32⟩
  | .hbm, ⟨8, _⟩ => ⟨S16x128x4096, .f32⟩
  | .hbm, ⟨9, _⟩ => ⟨S_, .f32⟩
  | .hbm, ⟨10, _⟩ => ⟨S16x128x4096, .f32⟩
  | .hbm, ⟨11, _⟩ => ⟨S16x128x4096, .f32⟩
  | .hbm, ⟨12, _⟩ => ⟨S16x128x4096x1, .f32⟩
  | .hbm, ⟨13, _⟩ => ⟨S16x128x4096x1, .f32⟩
  | .hbm, ⟨14, _⟩ => ⟨S16x128x4096x2, .f32⟩
  | .hbm, ⟨15, _⟩ => ⟨S16x128x8192, .f32⟩
  | .hbm, ⟨16, _⟩ => ⟨S16x128x8192, .f32⟩
  | .hbm, ⟨17, _⟩ => ⟨S_, .f32⟩
  | .hbm, ⟨18, _⟩ => ⟨S16x128x8192, .f32⟩
  | .hbm, ⟨19, _⟩ => ⟨S16x128x8192, .f32⟩
  | .hbm, ⟨20, _⟩ => ⟨S16x128x8192, .f32⟩
  | .hbm, ⟨21, _⟩ => ⟨S_, .f32⟩
  | .hbm, ⟨22, _⟩ => ⟨S16x128x8192, .f32⟩
  | .hbm, ⟨23, _⟩ => ⟨S16x128x8192, .f32⟩
  | .hbm, ⟨24, _⟩ => ⟨S16x128x8192x1, .f32⟩
  | .hbm, ⟨25, _⟩ => ⟨S16x128x8192x1, .f32⟩
  | .hbm, ⟨26, _⟩ => ⟨S16x128x8192x2, .f32⟩
  | .hbm, ⟨27, _⟩ => ⟨S16x128x16384, .f32⟩
  | .hbm, ⟨28, _⟩ => ⟨S16x128x16384, .f32⟩
  | .hbm, ⟨29, _⟩ => ⟨S_, .f32⟩
  | .hbm, ⟨30, _⟩ => ⟨S16x128x16384, .f32⟩
  | .hbm, ⟨31, _⟩ => ⟨S16x128x16384, .f32⟩
  | .hbm, ⟨32, _⟩ => ⟨S16x128x16384, .f32⟩
  | .hbm, ⟨33, _⟩ => ⟨S_, .f32⟩
  | .hbm, ⟨34, _⟩ => ⟨S16x128x16384, .f32⟩
  | .hbm, ⟨35, _⟩ => ⟨S16x128x16384, .f32⟩
  | .hbm, ⟨36, _⟩ => ⟨S16x128x16384x1, .f32⟩
  | .hbm, ⟨37, _⟩ => ⟨S16x128x16384x1, .f32⟩
  | .hbm, ⟨38, _⟩ => ⟨S16x128x16384x2, .f32⟩
  | .hbm, ⟨39, _⟩ => ⟨S16x128x32768, .f32⟩
  | _, _ => ⟨S16x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S_S16x128x4096 : S_.BroadcastsInDim S16x128x4096 (![] : Fin 0 → Fin S16x128x4096.rank)
  bcast_S16x128x4096_S16x128x4096x1_0_1_2 : S16x128x4096.BroadcastsInDim S16x128x4096x1 (![0, 1, 2] : Fin 3 → Fin S16x128x4096x1.rank)
  concatenates_S16x128x4096x1_S16x128x4096x1_S16x128x4096x2_d3 : Shape.Concatenates [S16x128x4096x1, S16x128x4096x1] S16x128x4096x2 3
  shapeCasts_S16x128x4096x2_S16x128x8192 : S16x128x4096x2.ShapeCasts S16x128x8192
  bcast_S_S16x128x8192 : S_.BroadcastsInDim S16x128x8192 (![] : Fin 0 → Fin S16x128x8192.rank)
  bcast_S16x128x8192_S16x128x8192x1_0_1_2 : S16x128x8192.BroadcastsInDim S16x128x8192x1 (![0, 1, 2] : Fin 3 → Fin S16x128x8192x1.rank)
  concatenates_S16x128x8192x1_S16x128x8192x1_S16x128x8192x2_d3 : Shape.Concatenates [S16x128x8192x1, S16x128x8192x1] S16x128x8192x2 3
  shapeCasts_S16x128x8192x2_S16x128x16384 : S16x128x8192x2.ShapeCasts S16x128x16384
  bcast_S_S16x128x16384 : S_.BroadcastsInDim S16x128x16384 (![] : Fin 0 → Fin S16x128x16384.rank)
  bcast_S16x128x16384_S16x128x16384x1_0_1_2 : S16x128x16384.BroadcastsInDim S16x128x16384x1 (![0, 1, 2] : Fin 3 → Fin S16x128x16384x1.rank)
  concatenates_S16x128x16384x1_S16x128x16384x1_S16x128x16384x2_d3 : Shape.Concatenates [S16x128x16384x1, S16x128x16384x1] S16x128x16384x2 3
  shapeCasts_S16x128x16384x2_S16x128x32768 : S16x128x16384x2.ShapeCasts S16x128x32768

variable [Facts₀]

class Facts : Prop extends Facts₀ where

variable [Facts]
-- ==== Proof.LibInterleave.lean ====
/-
  Two arrays of one shape INTERLEAVED along the last axis, read at an index.

  `jnp.stack([e, o], axis=-1).reshape(..., 2 L)` puts `e` on the even and `o` on the odd positions of a last axis
  twice as long: position `n` holds `e` at `n / 2` when `n` is even and `o` at `n / 2` when `n` is odd (`pick`).
  A vector unit spells it with shape casts (each operand given a trailing unit axis, the two joined along it, the pair
  axis flattened into the long one): `stack2_apply`, for matrices `[R, L]`. The host spells the trailing unit axis by a
  `broadcast_in_dim` instead: `stack3_apply`, for arrays `[A, B, L]`. Both hold for any element type and any extents;
  the doubled extent `L2 = 2 L` is a parameter so that a literal `8192` is met as it is printed.
  Row-major positions: `(r L + n / 2) · 2 + n % 2 = r · (2 L) + n`.
-/
import Idealize.ShloMosaic.Lib.Pipeline.Value
import Idealize.ShloMosaic.Lib.ValueIdx

noncomputable section

namespace Cert.Interleave

open Idealize.ShloMosaic Idealize.ShloMosaic.ValueIdx

variable {α : Type}

/-- What an interleaved pair holds at position `n` of its long axis: the even-position operand's value when `n` is
    even, the odd-position operand's when it is odd (both taken at `n / 2` by the caller). -/
def pick (n : Nat) (e o : α) : α := if n % 2 = 0 then e else o

theorem pick_even {n : Nat} (h : n % 2 = 0) (e o : α) : pick n e o = e := if_pos h
theorem pick_odd {n : Nat} (h : n % 2 = 1) (e o : α) : pick n e o = o := if_neg (by omega)

/-- The flattening's arithmetic: with `q = n / 2`, position `(p, q, n % 2)` of `[_, L, 2]` and position `(p, n)` of
    `[_, 2 L]` are one row-major position. -/
theorem flat_pos {L L2 : Nat} (hL : L2 = 2 * L) (p q n : Nat) (hq : q = n / 2) :
    (p * L + q) * 2 + n % 2 = p * L2 + n := by
  have e : p * L2 = 2 * (p * L) := by rw [hL]; exact Nat.mul_left_comm p 2 L
  rw [e, hq]
  generalize p * L = w
  omega

/-- MATRICES `[R, L]`: `e` and `o` each cast to `[R, L, 1]`, joined along the last axis to `[R, L, 2]`, cast to
    `[R, L2]` with `L2 = 2 L`: at `(r, n)` the result is `e (r, n / 2)` for even `n` and `o (r, n / 2)` for odd `n`. -/
theorem stack2_apply {R L L2 : Nat} (hL : L2 = 2 * L) (e o : (⟨2, ![R, L]⟩ : Shape).Idx → α)
    (h1 : (⟨2, ![R, L]⟩ : Shape).ShapeCasts ⟨3, ![R, L, 1]⟩)
    (hc : Shape.Concatenates [(⟨3, ![R, L, 1]⟩ : Shape), ⟨3, ![R, L, 1]⟩] ⟨3, ![R, L, 2]⟩ 2)
    (h2 : (⟨3, ![R, L, 2]⟩ : Shape).ShapeCasts ⟨2, ![R, L2]⟩)
    (r : Fin R) (n : Fin L2) (q : Fin L) (hq : q.val = n.val / 2) :
    shapeCast ⟨2, ![R, L2]⟩
        (concatenate ⟨3, ![R, L, 2]⟩ 2
          [⟨⟨3, ![R, L, 1]⟩, shapeCast ⟨3, ![R, L, 1]⟩ e h1⟩, ⟨⟨3, ![R, L, 1]⟩, shapeCast ⟨3, ![R, L, 1]⟩ o h1⟩] hc)
        h2 (ix2 r n)
      = pick n.val (e (ix2 r q)) (o (ix2 r q)) := by
  have hs : n.val % 2 < 2 := Nat.mod_lt _ (by decide)
  -- a trailing unit axis changes no position
  have unit : ∀ x : (⟨2, ![R, L]⟩ : Shape).Idx → α,
      shapeCast ⟨3, ![R, L, 1]⟩ x h1 (ix3 r q (0 : Fin 1)) = x (ix2 r q) := fun x =>
    shapeCast_apply x h1 _ _ (by
      rw [Shape.rowMajor_val_three, Shape.rowMajor_val_two]
      show r.val * L + q.val = (r.val * L + q.val) * 1 + 0
      omega)
  -- the long axis' position `n` is `(n / 2, n % 2)` of the pair axis
  refine (shapeCast_apply _ h2 (ix2 r n) (ix3 r q (⟨n.val % 2, hs⟩ : Fin 2)) (by
    rw [Shape.rowMajor_val_three, Shape.rowMajor_val_two]
    exact flat_pos hL r.val q.val n.val hq)).trans ?_
  rcases Nat.mod_two_eq_zero_or_one n.val with h0 | h0
  · rw [pick_even h0]
    refine (concatenate_pair_apply_left (t := ⟨3, ![R, L, 2]⟩) (2 : Fin 3) _ _ hc _ rfl (ix3 r q (0 : Fin 1)) (fun b => ?_)).trans (unit e)
    match b with
    | ⟨0, _⟩ => rfl
    | ⟨1, _⟩ => rfl
    | ⟨2, _⟩ => exact h0.symm
  · rw [pick_odd h0]
    refine (concatenate_pair_apply_right (t := ⟨3, ![R, L, 2]⟩) (2 : Fin 3) _ _ hc _ rfl rfl (ix3 r q (0 : Fin 1)) (fun b hb => ?_) ?_).trans (unit o)
    · match b, hb with
      | ⟨0, _⟩, _ => rfl
      | ⟨1, _⟩, _ => rfl
      | ⟨2, _⟩, hb => exact absurd rfl hb
    · show 0 + 1 = n.val % 2
      omega

/-- ARRAYS `[A, B, L]` on the host: `e` and `o` each broadcast along axes `0, 1, 2` into `[A, B, L, 1]`, joined along
    the last axis to `[A, B, L, 2]`, reshaped to `[A, B, L2]` with `L2 = 2 L`: at `(a, b, n)` the result is
    `e (a, b, n / 2)` for even `n` and `o (a, b, n / 2)` for odd `n`. -/
theorem stack3_apply {A B L L2 : Nat} (hL : L2 = 2 * L) (e o : (⟨3, ![A, B, L]⟩ : Shape).Idx → α)
    (hb : (⟨3, ![A, B, L]⟩ : Shape).BroadcastsInDim ⟨4, ![A, B, L, 1]⟩ ![0, 1, 2])
    (hc : Shape.Concatenates [(⟨4, ![A, B, L, 1]⟩ : Shape), ⟨4, ![A, B, L, 1]⟩] ⟨4, ![A, B, L, 2]⟩ 3)
    (h2 : (⟨4, ![A, B, L, 2]⟩ : Shape).ShapeCasts ⟨3, ![A, B, L2]⟩)
    (a : Fin A) (b : Fin B) (n : Fin L2) (q : Fin L) (hq : q.val = n.val / 2) :
    shapeCast ⟨3, ![A, B, L2]⟩
        (concatenate ⟨4, ![A, B, L, 2]⟩ 3
          [⟨⟨4, ![A, B, L, 1]⟩, broadcastInDim ⟨4, ![A, B, L, 1]⟩ ![0, 1, 2] hb e⟩,
           ⟨⟨4, ![A, B, L, 1]⟩, broadcastInDim ⟨4, ![A, B, L, 1]⟩ ![0, 1, 2] hb o⟩] hc)
        h2 (ix3 a b n)
      = pick n.val (e (ix3 a b q)) (o (ix3 a b q)) := by
  have hs : n.val % 2 < 2 := Nat.mod_lt _ (by decide)
  -- a trailing unit axis added by the broadcast changes no coordinate
  have unit : ∀ x : (⟨3, ![A, B, L]⟩ : Shape).Idx → α,
      broadcastInDim ⟨4, ![A, B, L, 1]⟩ ![0, 1, 2] hb x (ix4 a b q (0 : Fin 1)) = x (ix3 a b q) := fun x =>
    broadcastInDim_apply _ hb x _ _ (fun d => by
      match d with
      | ⟨0, _⟩ => show a.val = if A = 1 then 0 else a.val; have := a.isLt; split <;> omega
      | ⟨1, _⟩ => show b.val = if B = 1 then 0 else b.val; have := b.isLt; split <;> omega
      | ⟨2, _⟩ => show q.val = if L = 1 then 0 else q.val; have := q.isLt; split <;> omega)
  refine (shapeCast_apply _ h2 (ix3 a b n) (ix4 a b q (⟨n.val % 2, hs⟩ : Fin 2)) (by
    rw [Shape.rowMajor_val_four, Shape.rowMajor_val_three]
    exact flat_pos hL (a.val * B + b.val) q.val n.val hq)).trans ?_
  rcases Nat.mod_two_eq_zero_or_one n.val with h0 | h0
  · rw [pick_even h0]
    refine (concatenate_pair_apply_left (t := ⟨4, ![A, B, L, 2]⟩) (3 : Fin 4) _ _ hc _ rfl (ix4 a b q (0 : Fin 1)) (fun d => ?_)).trans (unit e)
    match d with
    | ⟨0, _⟩ => rfl
    | ⟨1, _⟩ => rfl
    | ⟨2, _⟩ => rfl
    | ⟨3, _⟩ => exact h0.symm
  · rw [pick_odd h0]
    refine (concatenate_pair_apply_right (t := ⟨4, ![A, B, L, 2]⟩) (3 : Fin 4) _ _ hc _ rfl rfl (ix4 a b q (0 : Fin 1)) (fun d hd => ?_) ?_).trans (unit o)
    · match d, hd with
      | ⟨0, _⟩, _ => rfl
      | ⟨1, _⟩, _ => rfl
      | ⟨2, _⟩, _ => rfl
      | ⟨3, _⟩, hd => exact absurd rfl hd
    · show 0 + 1 = n.val % 2
      omega

end Cert.Interleave

end
-- ==== Proof.Synthesis.lean ====
/-
  THE INVERSE HAAR TRANSFORM, three levels, as one function of its four argument arrays.

  One synthesis step turns a coarse value `lo` and a detail value `hi` at position `k` into the two values at
  positions `2 k` and `2 k + 1` of an axis twice as long: `(lo + hi) · s` and `(lo − hi) · s`, with `s` the f32 word
  nearest `2^(-1/2)` (`step`, which position `n` reads at `n / 2` and chooses by the parity of `n`). One LEVEL applies the
  step along the last axis of arrays `[A, B, L]`, giving `[A, B, 2 L]` (`level`); the transform is three levels, from
  extent 4096 to 32768, the coarsest detail first (`synth`). Nothing here is specific to a float instance: the same
  additions, subtractions and products at the same positions, so no law of arithmetic is needed to compare two
  programs that both compute it, only where each value sits.

  A level acts along the last axis only, so it commutes with cutting a block out of axes 0 and 1 (`place`,
  `synth_place`): the transform of a block of the arguments is the block of the transform.
-/
import proofs.«119759_j7825430413852_2_alg».proof.Proof.LibInterleave

noncomputable section

namespace Cert.HaarSynthesis

open Idealize.ShloMosaic Idealize.ShloMosaic.ValueIdx Cert.Interleave

variable {F : FTy → Type} [FloatOps F]

/-- The f32 word nearest `2^(-1/2)`: the factor of every step, in both programs. -/
abbrev scale : F .f32 := FloatOps.ofBits .f32 0x3F3504F3#32

/-- One synthesis step read at position `n`: the scaled sum of the coarse value and the detail when `n` is even, the
    scaled difference when `n` is odd. -/
def step (n : Nat) (lo hi : F .f32) : F .f32 :=
  pick n (FloatOps.mulf (FloatOps.addf lo hi) scale) (FloatOps.mulf (FloatOps.subf lo hi) scale)

/-- The position of the shorter axis that position `n` of the twice-longer axis is computed from: `n / 2`. -/
def half {L L2 : Nat} (hL : L2 = 2 * L) (n : Fin L2) : Fin L := ⟨n.val / 2, by have := n.isLt; omega⟩

/-- ONE LEVEL: arrays `[A, B, L]` of coarse values and of details give the array `[A, B, L2]`, `L2 = 2 L`, whose entry
    `(a, b, n)` is the step at `n` of the two entries `(a, b, n / 2)`. -/
def level {A B L L2 : Nat} (hL : L2 = 2 * L) (lo hi : (⟨3, ![A, B, L]⟩ : Shape).Idx → F .f32) :
    (⟨3, ![A, B, L2]⟩ : Shape).Idx → F .f32 :=
  fun i => step (i 2).val (lo (ix3 (n0 := A) (n1 := B) (n2 := L) (i 0) (i 1) (half hL (i 2))))
    (hi (ix3 (n0 := A) (n1 := B) (n2 := L) (i 0) (i 1) (half hL (i 2))))

theorem level_apply {A B L L2 : Nat} (hL : L2 = 2 * L) (lo hi : (⟨3, ![A, B, L]⟩ : Shape).Idx → F .f32)
    (a : Fin A) (b : Fin B) (n : Fin L2) :
    level hL lo hi (ix3 a b n) = step n.val (lo (ix3 a b (half hL n))) (hi (ix3 a b (half hL n))) := rfl

/-- THE TRANSFORM: three levels, 4096 → 8192 → 16384 → 32768 along the last axis; `lo` the coarsest approximation,
    `d2`, `d1`, `d0` the details from the coarsest to the finest. -/
def synth {A B : Nat} (lo d2 : (⟨3, ![A, B, 4096]⟩ : Shape).Idx → F .f32) (d1 : (⟨3, ![A, B, 8192]⟩ : Shape).Idx → F .f32)
    (d0 : (⟨3, ![A, B, 16384]⟩ : Shape).Idx → F .f32) : (⟨3, ![A, B, 32768]⟩ : Shape).Idx → F .f32 :=
  level (L := 16384) (L2 := 32768) rfl (level (L := 8192) (L2 := 16384) rfl (level (L := 4096) (L2 := 8192) rfl lo d2) d1) d0

/-- Entry `(a, b, n)` of the transform: three nested steps, reading the arguments at `n / 8`, `n / 8`, `n / 4`, `n / 2`. -/
theorem synth_apply {A B : Nat} (lo d2 : (⟨3, ![A, B, 4096]⟩ : Shape).Idx → F .f32) (d1 : (⟨3, ![A, B, 8192]⟩ : Shape).Idx → F .f32)
    (d0 : (⟨3, ![A, B, 16384]⟩ : Shape).Idx → F .f32) (a : Fin A) (b : Fin B) (n : Fin 32768) :
    synth lo d2 d1 d0 (ix3 a b n)
      = step n.val
          (step (half (L := 16384) rfl n).val
            (step (half (L := 8192) rfl (half (L := 16384) rfl n)).val
              (lo (ix3 a b (half (L := 4096) rfl (half (L := 8192) rfl (half (L := 16384) rfl n)))))
              (d2 (ix3 a b (half (L := 4096) rfl (half (L := 8192) rfl (half (L := 16384) rfl n))))))
            (d1 (ix3 a b (half (L := 8192) rfl (half (L := 16384) rfl n)))))
          (d0 (ix3 a b (half (L := 16384) rfl n))) := rfl

/-- Index `(u, r, n)` of a block `[A', B', L]` laid at offsets `p`, `q` of axes 0 and 1 of an array `[A, B, L]`. -/
def place {A B A' B' L : Nat} (p q : Nat) (hp : p + A' ≤ A) (hq : q + B' ≤ B) (y : (⟨3, ![A', B', L]⟩ : Shape).Idx) :
    (⟨3, ![A, B, L]⟩ : Shape).Idx :=
  ix3 (n0 := A) (n1 := B) (n2 := L) ⟨p + (y 0).val, by have : (y 0).val < A' := (y 0).isLt; omega⟩
    ⟨q + (y 1).val, by have : (y 1).val < B' := (y 1).isLt; omega⟩ (y 2)

/-- A level acts along the last axis: a block of a level is the level of the blocks. -/
theorem level_place {A B A' B' L L2 : Nat} (hL : L2 = 2 * L) (lo hi : (⟨3, ![A, B, L]⟩ : Shape).Idx → F .f32)
    (p q : Nat) (hp : p + A' ≤ A) (hq : q + B' ≤ B) (y : (⟨3, ![A', B', L2]⟩ : Shape).Idx) :
    level hL lo hi (place p q hp hq y)
      = level hL (fun z => lo (place p q hp hq z)) (fun z => hi (place p q hp hq z)) y := rfl

/-- So a block of the transform is the transform of the arguments' blocks at the same offsets. -/
theorem synth_place {A B A' B' : Nat} (lo d2 : (⟨3, ![A, B, 4096]⟩ : Shape).Idx → F .f32)
    (d1 : (⟨3, ![A, B, 8192]⟩ : Shape).Idx → F .f32) (d0 : (⟨3, ![A, B, 16384]⟩ : Shape).Idx → F .f32)
    (p q : Nat) (hp : p + A' ≤ A) (hq : q + B' ≤ B) (y : (⟨3, ![A', B', 32768]⟩ : Shape).Idx) :
    synth lo d2 d1 d0 (place p q hp hq y)
      = synth (fun z => lo (place p q hp hq z)) (fun z => d2 (place p q hp hq z)) (fun z => d1 (place p q hp hq z))
          (fun z => d0 (place p q hp hq z)) y := rfl

end Cert.HaarSynthesis

end
-- ==== Proof.BodyValue.lean ====
/-
  THE KERNEL BODY'S ARITHMETIC, read at an index: each of its three stored values is one synthesis level.

  The body holds the level's coarse values as a matrix `[32, L]` — the block `[1, 32, 4096]` of `low_last` with its
  leading unit axis dropped, then the scratch it wrote one level before — and the detail as a block `[1, 32, L]` with the
  unit axis dropped. It forms the scaled sum and the scaled difference `[32, L]`, gives each a trailing unit axis by a
  shape cast, joins them along it and flattens to `[32, 2 L]`: entry `(r, n)` is the step at `n` of the two entries
  `(r, n / 2)` (`Cert.Interleave.stack2_apply`). The last level's value gets a leading unit axis back, for the output
  block `[1, 32, 32768]`. Composed, the three stored values are the transform of the four input blocks (`body_eq`).
-/
import proofs.«119759_j7825430413852_2_alg».proof.Proof.Gen.KernelIdeal.Skeleton
import proofs.«119759_j7825430413852_2_alg».proof.Proof.Synthesis
import Idealize.ShloMosaic.Lib.ValueLayout

noncomputable section

namespace Cert.KernelIdeal.BodyValue

open Cert.KernelIdeal Cert.KernelIdeal.Gen
open Idealize.ShloMosaic Idealize.ShloMosaic.ValueIdx Cert.Interleave Cert.HaarSynthesis

variable {F : FTy → Type} [FloatOps F]

/-- LEVEL 1 in the body: from the blocks of `low_last` and `high2`, what the first scratch is given. -/
theorem pay2_apply (x0 x1 : Vec F S1x32x4096 .f32) (r : Fin 32) (n : Fin 8192) :
    k0_pay2 x0 x1 (ix2 r n)
      = step n.val (x0 (ix3 (0 : Fin 1) r (half (L := 4096) rfl n))) (x1 (ix3 (0 : Fin 1) r (half (L := 4096) rfl n))) := by
  unfold k0_pay2
  refine (congrFun (shapeCast_self _ shapeCasts_S32x8192_S32x8192) (ix2 r n)).trans ?_
  refine (stack2_apply (R := 32) (L := 4096) (L2 := 8192) rfl _ _ _ _ _ r n (half rfl n) rfl).trans ?_
  unfold step
  have e0 := shapeCast_1ab_ab_apply x0 shapeCasts_S1x32x4096_S32x4096 r (half (L := 4096) (L2 := 8192) rfl n)
  have e1 := shapeCast_1ab_ab_apply x1 shapeCasts_S1x32x4096_S32x4096 r (half (L := 4096) (L2 := 8192) rfl n)
  show pick n.val
      (FloatOps.mulf (FloatOps.addf (shapeCast S32x4096 x0 shapeCasts_S1x32x4096_S32x4096 (ix2 r (half rfl n)))
        (shapeCast S32x4096 x1 shapeCasts_S1x32x4096_S32x4096 (ix2 r (half rfl n)))) scale)
      (FloatOps.mulf (FloatOps.subf (shapeCast S32x4096 x0 shapeCasts_S1x32x4096_S32x4096 (ix2 r (half rfl n)))
        (shapeCast S32x4096 x1 shapeCasts_S1x32x4096_S32x4096 (ix2 r (half rfl n)))) scale) = _
  rw [e0, e1]

/-- LEVEL 2 in the body: from the first scratch read back and the block of `high1`, what the second scratch is given. -/
theorem pay3_apply (v : Vec F S32x8192 .f32) (x2 : Vec F S1x32x8192 .f32) (r : Fin 32) (n : Fin 16384) :
    k0_pay3 v x2 (ix2 r n)
      = step n.val (v (ix2 r (half (L := 8192) rfl n))) (x2 (ix3 (0 : Fin 1) r (half (L := 8192) rfl n))) := by
  unfold k0_pay3
  refine (congrFun (shapeCast_self _ shapeCasts_S32x16384_S32x16384) (ix2 r n)).trans ?_
  refine (stack2_apply (R := 32) (L := 8192) (L2 := 16384) rfl _ _ _ _ _ r n (half rfl n) rfl).trans ?_
  unfold step
  have e := shapeCast_1ab_ab_apply x2 shapeCasts_S1x32x8192_S32x8192 r (half (L := 8192) (L2 := 16384) rfl n)
  show pick n.val
      (FloatOps.mulf (FloatOps.addf (v (ix2 r (half rfl n)))
        (shapeCast S32x8192 x2 shapeCasts_S1x32x8192_S32x8192 (ix2 r (half rfl n)))) scale)
      (FloatOps.mulf (FloatOps.subf (v (ix2 r (half rfl n)))
        (shapeCast S32x8192 x2 shapeCasts_S1x32x8192_S32x8192 (ix2 r (half rfl n)))) scale) = _
  rw [e]

/-- LEVEL 3 in the body: from the second scratch read back and the block of `high0`, the output block. -/
theorem pay1_apply (v : Vec F S32x16384 .f32) (x3 : Vec F S1x32x16384 .f32) (u : Fin 1) (r : Fin 32) (n : Fin 32768) :
    k0_pay1 v x3 (ix3 u r n)
      = step n.val (v (ix2 r (half (L := 16384) rfl n))) (x3 (ix3 (0 : Fin 1) r (half (L := 16384) rfl n))) := by
  unfold k0_pay1
  refine (shapeCast_ab_1ab_apply _ shapeCasts_S32x32768_S1x32x32768 u r n).trans ?_
  refine (stack2_apply (R := 32) (L := 16384) (L2 := 32768) rfl _ _ _ _ _ r n (half rfl n) rfl).trans ?_
  unfold step
  have e := shapeCast_1ab_ab_apply x3 shapeCasts_S1x32x16384_S32x16384 r (half (L := 16384) (L2 := 32768) rfl n)
  show pick n.val
      (FloatOps.mulf (FloatOps.addf (v (ix2 r (half rfl n)))
        (shapeCast S32x16384 x3 shapeCasts_S1x32x16384_S32x16384 (ix2 r (half rfl n)))) scale)
      (FloatOps.mulf (FloatOps.subf (v (ix2 r (half rfl n)))
        (shapeCast S32x16384 x3 shapeCasts_S1x32x16384_S32x16384 (ix2 r (half rfl n)))) scale) = _
  rw [e]

/-- THE BODY'S THREE STORES, composed: the output block is the transform of the four input blocks — the block of
    `low_last` the coarsest approximation, the blocks of `high2`, `high1`, `high0` the details. -/
theorem body_eq (x0 x1 : Vec F S1x32x4096 .f32) (x2 : Vec F S1x32x8192 .f32) (x3 : Vec F S1x32x16384 .f32) :
    k0_pay1 (k0_pay3 (k0_pay2 x0 x1) x2) x3 = synth (A := 1) (B := 32) x0 x1 x2 x3 := by
  funext y
  obtain ⟨u, r, n, rfl⟩ : ∃ (u : Fin 1) (r : Fin 32) (n : Fin 32768), y = ix3 u r n := ⟨y 0, y 1, y 2, eq_ix3 y⟩
  obtain rfl : u = 0 := Subsingleton.elim _ _
  rw [pay1_apply, pay3_apply, pay2_apply, synth_apply]

end Cert.KernelIdeal.BodyValue

end
-- ==== Proof.ArrayValue.lean ====
/-
  THE KERNEL'S RESULT ARRAY is the transform of its argument arrays.

  The grid is 16 × 4: point `(b, k)` stages, of every operand, the block at batch entry `b` and channels
  `32 k … 32 k + 31`, whole along the last axis (every window's index map is `(b, k, 0)`, decided over the 64 points).
  The body writes its first level into a scratch buffer and reads it back, its second level into another and reads it
  back, and stores the third into the output block: the run's one piece for the output is the last payload over those
  two covered read-backs, so what the body leaves in the output block is the composed payloads of the four input blocks
  (`out_eq`) — the transform of the blocks (`BodyValue.body_eq`). An input block is its argument array read at the
  block's offsets (`iblk0` … `iblk3`), the transform acts along the last axis only, so the block of the transform
  of the arrays is the transform of the blocks (`HaarSynthesis.synth_place`): what point `t` writes back is block `t` of
  the transform (`flushed_eq`). The 64 blocks cover the result array (`covered`); hence `final`, and the run.
-/
import proofs.«119759_j7825430413852_2_alg».proof.Proof.Gen.KernelIdeal.Value
import proofs.«119759_j7825430413852_2_alg».proof.Proof.BodyValue
import Idealize.ShloMosaic.Lib.Pipeline.Value
import Idealize.ShloMosaic.Lib.Tactic

noncomputable section

namespace Cert.KernelIdeal.ArrayValue

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Cert.HaarSynthesis

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in the output block -/

/-- The output block after the body: the third level's payload over the second scratch read back, itself the second
    level's payload over the first scratch read back, itself the first level's payload — each read-back a load that the
    one store before it covers. -/
theorem out_eq (c : Dev nD) (i : grid0.Coords) (arg2 : Memref sig .tc .vmem S1x32x4096 .f32) (harg2 : arg2.IsWhole) (arg3 : Memref sig .tc .vmem S1x32x4096 .f32) (harg3 : arg3.IsWhole) (arg4 : Memref sig .tc .vmem S1x32x8192 .f32) (harg4 : arg4.IsWhole) (arg5 : Memref sig .tc .vmem S1x32x16384 .f32) (harg5 : arg5.IsWhole) (arg6 : Memref sig .tc .vmem S1x32x32768 .f32) (harg6 : arg6.IsWhole) (arg7 : Memref sig .tc .vmem S32x8192 .f32) (harg7 : arg7.IsWhole) (arg8 : Memref sig .tc .vmem S32x16384 .f32) (harg8 : arg8.IsWhole)
    (x0 : Vec F S1x32x4096 .f32) (x1 : Vec F S1x32x4096 .f32) (x2 : Vec F S1x32x8192 .f32) (x3 : Vec F S1x32x16384 .f32) :
    out0_A_4 c i arg2 harg2 arg3 harg3 arg4 harg4 arg5 harg5 arg6 harg6 arg7 harg7 arg8 harg8 x0 x1 x2 x3 = k0_pay1 (k0_pay3 (k0_pay2 x0 x1) x2) x3 := by
  unfold out0_A_4
  rw [View.read_writes_eq_canon _ _ _ (cover0_A_4 c i arg2 harg2 arg3 harg3 arg4 harg4 arg5 harg5 arg6 harg6 arg7 harg7 arg8 harg8 x0 x1 x2 x3)]
  unfold kernelRun0_A
  dsimp only
  sl_unfold_words
  rw [View.canon_unit_zero hz3]
  rw [View.readCov_unit_zero (S := S32x16384) _ hz2, View.readCov_unit_zero (S := S32x8192) _ hz2]
  simp only [View.readAt_eq_ld, harg2.read_unread, harg3.read_unread, harg4.read_unread, harg5.read_unread,
    View.ld_unit_zero (S := S1x32x4096) hz3, View.ld_unit_zero (S := S1x32x8192) hz3, View.ld_unit_zero (S := S1x32x16384) hz3]

/-! ## The windows' blocks -/

/-- The printed index maps, decided over the grid: at every point every input window is at the output window's block
    index on axes 0 and 1 and at 0 on the last axis, and the output's block index is `(b, k, 0)` with `b < 16`, `k < 4`. -/
theorem idx_facts : ∀ t : Fin cfg0.N,
    (win0_0.index t (0 : Fin 3) = win0_4.index t (0 : Fin 3) ∧ win0_0.index t (1 : Fin 3) = win0_4.index t (1 : Fin 3) ∧ win0_0.index t (2 : Fin 3) = 0)
    ∧ (win0_1.index t (0 : Fin 3) = win0_4.index t (0 : Fin 3) ∧ win0_1.index t (1 : Fin 3) = win0_4.index t (1 : Fin 3) ∧ win0_1.index t (2 : Fin 3) = 0)
    ∧ (win0_2.index t (0 : Fin 3) = win0_4.index t (0 : Fin 3) ∧ win0_2.index t (1 : Fin 3) = win0_4.index t (1 : Fin 3) ∧ win0_2.index t (2 : Fin 3) = 0)
    ∧ (win0_3.index t (0 : Fin 3) = win0_4.index t (0 : Fin 3) ∧ win0_3.index t (1 : Fin 3) = win0_4.index t (1 : Fin 3) ∧ win0_3.index t (2 : Fin 3) = 0)
    ∧ win0_4.index t (0 : Fin 3) < 16 ∧ win0_4.index t (1 : Fin 3) < 4 ∧ win0_4.index t (2 : Fin 3) = 0 :=
  (by decide +kernel : ∀ t : Fin grid0.N, _)

/-- Every block of the result array is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- Point `t`'s batch entry and first channel fit the arrays. -/
theorem fits0 (t : Fin cfg0.N) : win0_4.index t (0 : Fin 3) + 1 ≤ 16 := by have := (idx_facts t).2.2.2.2.1; omega
theorem fits1 (t : Fin cfg0.N) : win0_4.index t (1 : Fin 3) * 32 + 32 ≤ 128 := by have := (idx_facts t).2.2.2.2.2.1; omega

/-- Index `z` of point `t`'s block of an array `[16, 128, L]`: batch entry `b`, channel `32 k + z₁`, position `z₂`. -/
abbrev at_ {L : Nat} (t : Fin cfg0.N) (z : (⟨3, ![1, 32, L]⟩ : Shape).Idx) : (⟨3, ![16, 128, L]⟩ : Shape).Idx :=
  place (A := 16) (B := 128) (A' := 1) (B' := 32) (L := L) (win0_4.index t (0 : Fin 3)) (win0_4.index t (1 : Fin 3) * 32) (fits0 t) (fits1 t) z

/-- Window 0's block at point `t` is `low_last` (argument 0) read at the block's offsets. -/
theorem iblk0 (c : Dev nD) (t : Fin cfg0.N) :
    (iblk m c 0 t : Vec F S1x32x4096 .f32) = fun z => V m c main_arg0 (at_ t z) := by
  obtain ⟨⟨e0, e1, e2⟩, -⟩ := idx_facts t
  funext z
  unfold iblk
  rw [View.read_apply]
  show V m c main_arg0 _ = V m c main_arg0 _
  refine congrArg _ (funext fun a => Fin.ext ?_)
  match a with
  | ⟨0, _⟩ => show win0_0.index t (0 : Fin 3) * 1 + 1 * (z 0).val = win0_4.index t (0 : Fin 3) + (z 0).val; omega
  | ⟨1, _⟩ => show win0_0.index t (1 : Fin 3) * 32 + 1 * (z 1).val = win0_4.index t (1 : Fin 3) * 32 + (z 1).val; omega
  | ⟨2, _⟩ => show win0_0.index t (2 : Fin 3) * 4096 + 1 * (z 2).val = (z 2).val; omega

/-- Window 1's block at point `t` is `high2` (argument 3) read at the block's offsets. -/
theorem iblk1 (c : Dev nD) (t : Fin cfg0.N) :
    (iblk m c 1 t : Vec F S1x32x4096 .f32) = fun z => V m c main_arg3 (at_ t z) := by
  obtain ⟨-, ⟨e0, e1, e2⟩, -⟩ := idx_facts t
  funext z
  unfold iblk
  rw [View.read_apply]
  show V m c main_arg3 _ = V m c main_arg3 _
  refine congrArg _ (funext fun a => Fin.ext ?_)
  match a with
  | ⟨0, _⟩ => show win0_1.index t (0 : Fin 3) * 1 + 1 * (z 0).val = win0_4.index t (0 : Fin 3) + (z 0).val; omega
  | ⟨1, _⟩ => show win0_1.index t (1 : Fin 3) * 32 + 1 * (z 1).val = win0_4.index t (1 : Fin 3) * 32 + (z 1).val; omega
  | ⟨2, _⟩ => show win0_1.index t (2 : Fin 3) * 4096 + 1 * (z 2).val = (z 2).val; omega

/-- Window 2's block at point `t` is `high1` (argument 2) read at the block's offsets. -/
theorem iblk2 (c : Dev nD) (t : Fin cfg0.N) :
    (iblk m c 2 t : Vec F S1x32x8192 .f32) = fun z => V m c main_arg2 (at_ t z) := by
  obtain ⟨-, -, ⟨e0, e1, e2⟩, -⟩ := idx_facts t
  funext z
  unfold iblk
  rw [View.read_apply]
  show V m c main_arg2 _ = V m c main_arg2 _
  refine congrArg _ (funext fun a => Fin.ext ?_)
  match a with
  | ⟨0, _⟩ => show win0_2.index t (0 : Fin 3) * 1 + 1 * (z 0).val = win0_4.index t (0 : Fin 3) + (z 0).val; omega
  | ⟨1, _⟩ => show win0_2.index t (1 : Fin 3) * 32 + 1 * (z 1).val = win0_4.index t (1 : Fin 3) * 32 + (z 1).val; omega
  | ⟨2, _⟩ => show win0_2.index t (2 : Fin 3) * 8192 + 1 * (z 2).val = (z 2).val; omega

/-- Window 3's block at point `t` is `high0` (argument 1) read at the block's offsets. -/
theorem iblk3 (c : Dev nD) (t : Fin cfg0.N) :
    (iblk m c 3 t : Vec F S1x32x16384 .f32) = fun z => V m c main_arg1 (at_ t z) := by
  obtain ⟨-, -, -, ⟨e0, e1, e2⟩, -⟩ := idx_facts t
  funext z
  unfold iblk
  rw [View.read_apply]
  show V m c main_arg1 _ = V m c main_arg1 _
  refine congrArg _ (funext fun a => Fin.ext ?_)
  match a with
  | ⟨0, _⟩ => show win0_3.index t (0 : Fin 3) * 1 + 1 * (z 0).val = win0_4.index t (0 : Fin 3) + (z 0).val; omega
  | ⟨1, _⟩ => show win0_3.index t (1 : Fin 3) * 32 + 1 * (z 1).val = win0_4.index t (1 : Fin 3) * 32 + (z 1).val; omega
  | ⟨2, _⟩ => show win0_3.index t (2 : Fin 3) * 16384 + 1 * (z 2).val = (z 2).val; omega

/-- The output window's block at point `t` sits at the same offsets. -/
theorem emb4 (t : Fin cfg0.N) (y : S1x32x32768.Idx) : ((cfg0.win 4).blk t).view.emb y = at_ t y := by
  obtain ⟨-, -, -, -, -, -, e2⟩ := idx_facts t
  refine funext fun a => Fin.ext ?_
  match a with
  | ⟨0, _⟩ => show win0_4.index t (0 : Fin 3) * 1 + 1 * (y 0).val = win0_4.index t (0 : Fin 3) + (y 0).val; omega
  | ⟨1, _⟩ => show win0_4.index t (1 : Fin 3) * 32 + 1 * (y 1).val = win0_4.index t (1 : Fin 3) * 32 + (y 1).val; omega
  | ⟨2, _⟩ => show win0_4.index t (2 : Fin 3) * 32768 + 1 * (y 2).val = (y 2).val; omega

/-! ## From the blocks to the array -/

/-- The transform of the argument arrays as the region finds them. -/
abbrev result (c : Dev nD) : S16x128x32768.Idx → Elt F .f32 :=
  synth (A := 16) (B := 128) (V m c main_arg0) (V m c main_arg3) (V m c main_arg2) (V m c main_arg1)

/-- WHAT POINT `t` WRITES BACK is block `t` of the transform of the argument arrays. -/
theorem flushed_eq (c : Dev nD) (t : Fin cfg0.N) :
    (dats m 0 c).flushed 4 t = ((cfg0.win 4).blk t).view.read (Elt F) (result m c) := by
  rw [Cert.KernelIdeal.Value.flushed4_A]
  rw [out_eq (F := F) c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 0 t) (iblk m c 1 t) (iblk m c 2 t) (iblk m c 3 t)]
  rw [Cert.KernelIdeal.BodyValue.body_eq (F := F) (iblk m c 0 t) (iblk m c 1 t) (iblk m c 2 t) (iblk m c 3 t)]
  rw [iblk0 m c t, iblk1 m c t, iblk2 m c t, iblk3 m c t]
  funext y
  show synth (A := 1) (B := 32) (fun z => V m c main_arg0 (at_ t z)) (fun z => V m c main_arg3 (at_ t z))
      (fun z => V m c main_arg2 (at_ t z)) (fun z => V m c main_arg1 (at_ t z)) y
    = result m c (((cfg0.win 4).blk t).view.emb y)
  rw [emb4 t y]
  exact (synth_place (A := 16) (B := 128) (A' := 1) (B' := 32) (V m c main_arg0) (V m c main_arg3) (V m c main_arg2) (V m c main_arg1)
    (win0_4.index t (0 : Fin 3)) (win0_4.index t (1 : Fin 3) * 32) (fits0 t) (fits1 t) y).symm

/-- Every index of the result array is in some point's block: `(b, ch, n)` in the block of the point at `(b, ch / 32)`. -/
theorem covered (i : S16x128x32768.Idx) :
    ∃ t : Fin cfg0.N, (cfg0.win 4).flush t = true ∧ i ∈ ((cfg0.win 4).blk t).view.set := by
  have h0 : (i 0).val < 16 := (i 0).isLt
  have h1 : (i 1).val < 128 := (i 1).isLt
  have h2 : (i 2).val < 32768 := (i 2).isLt
  obtain ⟨t, ht⟩ := idx_onto ⟨(i 0).val, h0⟩ ⟨(i 1).val / 32, by omega⟩
  have q0 : win0_4.index t (0 : Fin 3) = (i 0).val := congrFun ht 0
  have q1 : win0_4.index t (1 : Fin 3) = (i 1).val / 32 := congrFun ht 1
  have q2 : win0_4.index t (2 : Fin 3) = 0 := congrFun ht 2
  refine ⟨t, flush0_4 t, ?_⟩
  show i ∈ ((View.whole main_v0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 32768 ≤ (i 2).val ∧ (i 2).val < win0_4.index t (2 : Fin 3) * 32768 + 32768; omega

/-- THE RESULT ARRAY after the run is the transform of the argument arrays. -/
theorem final (c : Dev nD) : (dats m 0 c).arrAt 4 cfg0.N = result m c :=
  (dats m 0 c).arrAt_eq_of_cover 4 (result m c) (fun t _ => flushed_eq m c t) covered

/-- The run, read: the result at the transform of the launch contents of the arguments, the arguments unchanged. -/
theorem run : θ_run defs (onTc (τ := τ) (main (F := F))) ⟨m, fun _ => 0, ρ⟩ fun r => ∀ c : Dev nD,
      r.2.mem ((c : Thread nD τ).loc main_v0)
        = synth (A := 16) (B := 128) (m ((c : Thread nD τ).loc main_arg0)) (m ((c : Thread nD τ).loc main_arg3))
            (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.RefRun.lean ====
/-
  THE REFERENCE'S RUN, read one level at a time: its result is the transform of its arguments.

  @main is 36 host operations, three times the same twelve: the sum and the difference of the coarse array and the
  detail array, each times the broadcast scale; each product broadcast into a trailing unit axis; the two joined along
  it; the pair axis flattened into an axis twice as long. Read over ANY contents `W` of the buffers, twelve operations
  leave in their last result one level (`Cert.HaarSynthesis.level`) of what `W` holds in their two operands
  (`stage1`, `stage2`, `stage3`: `Cert.Interleave.stack3_apply` at each index, the operands' entries the step's two
  branches by definition) and leave every argument as it was. The 36 operations are the three dozens in a row, so the
  result buffer ends at three nested levels of the launch contents: `synth` of argument 0 (the coarsest approximation)
  and arguments 3, 2, 1 (the details, coarsest first). Stating each dozen over an arbitrary `W` keeps every term one
  level deep: the result's composed term over the launch contents, which repeats the first level eight times, is
  never written.
-/
import proofs.«119759_j7825430413852_2_alg».proof.Proof.Gen.ReferenceIdeal
import proofs.«119759_j7825430413852_2_alg».proof.Proof.Synthesis
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo
open Idealize.ShloMosaic.ValueIdx Cert.Interleave Cert.HaarSynthesis

variable {F : FTy → Type} [FloatOps F]

/-- The first level's twelve operations: `%0` … `%9` from arguments 0 and 3. -/
abbrev ops1 : List (HloOp τ sig (Elt F)) :=
  [ binary main_arg0 main_arg3 main_v0 (addf : (⟨S16x128x4096, .f32⟩ : BufTy).Contents (Elt F) → (⟨S16x128x4096, .f32⟩ : BufTy).Contents (Elt F) → (⟨S16x128x4096, .f32⟩ : BufTy).Contents (Elt F)),
    nullary main_cst (constant S_ .f32 0x3F3504F3#32),
    unary main_cst main_v1 (broadcastInDim S16x128x4096 ![] bcast_S_S16x128x4096 : (⟨S_, .f32⟩ : BufTy).Contents (Elt F) → (⟨S16x128x4096, .f32⟩ : BufTy).Contents (Elt F)),
    binary main_v0 main_v1 main_v2 (mulf : (⟨S16x128x4096, .f32⟩ : BufTy).Contents (Elt F) → (⟨S16x128x4096, .f32⟩ : BufTy).Contents (Elt F) → (⟨S16x128x4096, .f32⟩ : BufTy).Contents (Elt F)),
    binary main_arg0 main_arg3 main_v3 (subf : (⟨S16x128x4096, .f32⟩ : BufTy).Contents (Elt F) → (⟨S16x128x4096, .f32⟩ : BufTy).Contents (Elt F) → (⟨S16x128x4096, .f32⟩ : BufTy).Contents (Elt F)),
    nullary main_cst_0 (constant S_ .f32 0x3F3504F3#32),
    unary main_cst_0 main_v4 (broadcastInDim S16x128x4096 ![] bcast_S_S16x128x4096 : (⟨S_, .f32⟩ : BufTy).Contents (Elt F) → (⟨S16x128x4096, .f32⟩ : BufTy).Contents (Elt F)),
    binary main_v3 main_v4 main_v5 (mulf : (⟨S16x128x4096, .f32⟩ : BufTy).Contents (Elt F) → (⟨S16x128x4096, .f32⟩ : BufTy).Contents (Elt F) → (⟨S16x128x4096, .f32⟩ : BufTy).Contents (Elt F)),
    unary main_v2 main_v6 (broadcastInDim S16x128x4096x1 ![0, 1, 2] bcast_S16x128x4096_S16x128x4096x1_0_1_2 : (⟨S16x128x4096, .f32⟩ : BufTy).Contents (Elt F) → (⟨S16x128x4096x1, .f32⟩ : BufTy).Contents (Elt F)),
    unary main_v5 main_v7 (broadcastInDim S16x128x4096x1 ![0, 1, 2] bcast_S16x128x4096_S16x128x4096x1_0_1_2 : (⟨S16x128x4096, .f32⟩ : BufTy).Contents (Elt F) → (⟨S16x128x4096x1, .f32⟩ : BufTy).Contents (Elt F)),
    binary main_v6 main_v7 main_v8 ((fun a b => concatenate S16x128x4096x2 3 [⟨S16x128x4096x1, a⟩, ⟨S16x128x4096x1, b⟩] concatenates_S16x128x4096x1_S16x128x4096x1_S16x128x4096x2_d3) : (⟨S16x128x4096x1, .f32⟩ : BufTy).Contents (Elt F) → (⟨S16x128x4096x1, .f32⟩ : BufTy).Contents (Elt F) → (⟨S16x128x4096x2, .f32⟩ : BufTy).Contents (Elt F)),
    reshape main_v8 main_v9 rfl shapeCasts_S16x128x4096x2_S16x128x8192 ]

/-- The second level's twelve operations: `%10` … `%19` from `%9` and argument 2. -/
abbrev ops2 : List (HloOp τ sig (Elt F)) :=
  [ binary main_v9 main_arg2 main_v10 (addf : (⟨S16x128x8192, .f32⟩ : BufTy).Contents (Elt F) → (⟨S16x128x8192, .f32⟩ : BufTy).Contents (Elt F) → (⟨S16x128x8192, .f32⟩ : BufTy).Contents (Elt F)),
    nullary main_cst_1 (constant S_ .f32 0x3F3504F3#32),
    unary main_cst_1 main_v11 (broadcastInDim S16x128x8192 ![] bcast_S_S16x128x8192 : (⟨S_, .f32⟩ : BufTy).Contents (Elt F) → (⟨S16x128x8192, .f32⟩ : BufTy).Contents (Elt F)),
    binary main_v10 main_v11 main_v12 (mulf : (⟨S16x128x8192, .f32⟩ : BufTy).Contents (Elt F) → (⟨S16x128x8192, .f32⟩ : BufTy).Contents (Elt F) → (⟨S16x128x8192, .f32⟩ : BufTy).Contents (Elt F)),
    binary main_v9 main_arg2 main_v13 (subf : (⟨S16x128x8192, .f32⟩ : BufTy).Contents (Elt F) → (⟨S16x128x8192, .f32⟩ : BufTy).Contents (Elt F) → (⟨S16x128x8192, .f32⟩ : BufTy).Contents (Elt F)),
    nullary main_cst_2 (constant S_ .f32 0x3F3504F3#32),
    unary main_cst_2 main_v14 (broadcastInDim S16x128x8192 ![] bcast_S_S16x128x8192 : (⟨S_, .f32⟩ : BufTy).Contents (Elt F) → (⟨S16x128x8192, .f32⟩ : BufTy).Contents (Elt F)),
    binary main_v13 main_v14 main_v15 (mulf : (⟨S16x128x8192, .f32⟩ : BufTy).Contents (Elt F) → (⟨S16x128x8192, .f32⟩ : BufTy).Contents (Elt F) → (⟨S16x128x8192, .f32⟩ : BufTy).Contents (Elt F)),
    unary main_v12 main_v16 (broadcastInDim S16x128x8192x1 ![0, 1, 2] bcast_S16x128x8192_S16x128x8192x1_0_1_2 : (⟨S16x128x8192, .f32⟩ : BufTy).Contents (Elt F) → (⟨S16x128x8192x1, .f32⟩ : BufTy).Contents (Elt F)),
    unary main_v15 main_v17 (broadcastInDim S16x128x8192x1 ![0, 1, 2] bcast_S16x128x8192_S16x128x8192x1_0_1_2 : (⟨S16x128x8192, .f32⟩ : BufTy).Contents (Elt F) → (⟨S16x128x8192x1, .f32⟩ : BufTy).Contents (Elt F)),
    binary main_v16 main_v17 main_v18 ((fun a b => concatenate S16x128x8192x2 3 [⟨S16x128x8192x1, a⟩, ⟨S16x128x8192x1, b⟩] concatenates_S16x128x8192x1_S16x128x8192x1_S16x128x8192x2_d3) : (⟨S16x128x8192x1, .f32⟩ : BufTy).Contents (Elt F) → (⟨S16x128x8192x1, .f32⟩ : BufTy).Contents (Elt F) → (⟨S16x128x8192x2, .f32⟩ : BufTy).Contents (Elt F)),
    reshape main_v18 main_v19 rfl shapeCasts_S16x128x8192x2_S16x128x16384 ]

/-- The third level's twelve operations: `%20` … `%29` from `%19` and argument 1. -/
abbrev ops3 : List (HloOp τ sig (Elt F)) :=
  [ binary main_v19 main_arg1 main_v20 (addf : (⟨S16x128x16384, .f32⟩ : BufTy).Contents (Elt F) → (⟨S16x128x16384, .f32⟩ : BufTy).Contents (Elt F) → (⟨S16x128x16384, .f32⟩ : BufTy).Contents (Elt F)),
    nullary main_cst_3 (constant S_ .f32 0x3F3504F3#32),
    unary main_cst_3 main_v21 (broadcastInDim S16x128x16384 ![] bcast_S_S16x128x16384 : (⟨S_, .f32⟩ : BufTy).Contents (Elt F) → (⟨S16x128x16384, .f32⟩ : BufTy).Contents (Elt F)),
    binary main_v20 main_v21 main_v22 (mulf : (⟨S16x128x16384, .f32⟩ : BufTy).Contents (Elt F) → (⟨S16x128x16384, .f32⟩ : BufTy).Contents (Elt F) → (⟨S16x128x16384, .f32⟩ : BufTy).Contents (Elt F)),
    binary main_v19 main_arg1 main_v23 (subf : (⟨S16x128x16384, .f32⟩ : BufTy).Contents (Elt F) → (⟨S16x128x16384, .f32⟩ : BufTy).Contents (Elt F) → (⟨S16x128x16384, .f32⟩ : BufTy).Contents (Elt F)),
    nullary main_cst_4 (constant S_ .f32 0x3F3504F3#32),
    unary main_cst_4 main_v24 (broadcastInDim S16x128x16384 ![] bcast_S_S16x128x16384 : (⟨S_, .f32⟩ : BufTy).Contents (Elt F) → (⟨S16x128x16384, .f32⟩ : BufTy).Contents (Elt F)),
    binary main_v23 main_v24 main_v25 (mulf : (⟨S16x128x16384, .f32⟩ : BufTy).Contents (Elt F) → (⟨S16x128x16384, .f32⟩ : BufTy).Contents (Elt F) → (⟨S16x128x16384, .f32⟩ : BufTy).Contents (Elt F)),
    unary main_v22 main_v26 (broadcastInDim S16x128x16384x1 ![0, 1, 2] bcast_S16x128x16384_S16x128x16384x1_0_1_2 : (⟨S16x128x16384, .f32⟩ : BufTy).Contents (Elt F) → (⟨S16x128x16384x1, .f32⟩ : BufTy).Contents (Elt F)),
    unary main_v25 main_v27 (broadcastInDim S16x128x16384x1 ![0, 1, 2] bcast_S16x128x16384_S16x128x16384x1_0_1_2 : (⟨S16x128x16384, .f32⟩ : BufTy).Contents (Elt F) → (⟨S16x128x16384x1, .f32⟩ : BufTy).Contents (Elt F)),
    binary main_v26 main_v27 main_v28 ((fun a b => concatenate S16x128x16384x2 3 [⟨S16x128x16384x1, a⟩, ⟨S16x128x16384x1, b⟩] concatenates_S16x128x16384x1_S16x128x16384x1_S16x128x16384x2_d3) : (⟨S16x128x16384x1, .f32⟩ : BufTy).Contents (Elt F) → (⟨S16x128x16384x1, .f32⟩ : BufTy).Contents (Elt F) → (⟨S16x128x16384x2, .f32⟩ : BufTy).Contents (Elt F)),
    reshape main_v28 main_v29 rfl shapeCasts_S16x128x16384x2_S16x128x32768 ]

/-- @main's 36 operations: the three dozens in a row. -/
abbrev ops : List (HloOp τ sig (Elt F)) := ops1 ++ (ops2 ++ ops3)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub ..⟩

/-- Operations run one list after another: the second list starts from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## One level at a time, over any contents -/

section Stages
variable (W : Valuation τ sig (Elt F))

/-- The first dozen leaves in `%9` one level of what arguments 0 and 3 hold. -/
theorem stage1 : after ops1 W (Proc.devRef .tc main_v9)
    = level (A := 16) (B := 128) (L := 4096) (L2 := 8192) rfl (W (Proc.devRef .tc main_arg0)) (W (Proc.devRef .tc main_arg3)) := by
  after_results
  funext i
  obtain ⟨a, b, n, rfl⟩ : ∃ (a : Fin 16) (b : Fin 128) (n : Fin 8192), i = ix3 a b n := ⟨i 0, i 1, i 2, eq_ix3 i⟩
  exact stack3_apply (A := 16) (B := 128) (L := 4096) (L2 := 8192) rfl _ _ _ _ _ a b n (half rfl n) rfl

theorem kept1_arg0 : after ops1 W (Proc.devRef .tc main_arg0) = W (Proc.devRef .tc main_arg0) := by after_results
theorem kept1_arg1 : after ops1 W (Proc.devRef .tc main_arg1) = W (Proc.devRef .tc main_arg1) := by after_results
theorem kept1_arg2 : after ops1 W (Proc.devRef .tc main_arg2) = W (Proc.devRef .tc main_arg2) := by after_results
theorem kept1_arg3 : after ops1 W (Proc.devRef .tc main_arg3) = W (Proc.devRef .tc main_arg3) := by after_results

/-- The second dozen leaves in `%19` one level of what `%9` and argument 2 hold. -/
theorem stage2 : after ops2 W (Proc.devRef .tc main_v19)
    = level (A := 16) (B := 128) (L := 8192) (L2 := 16384) rfl (W (Proc.devRef .tc main_v9)) (W (Proc.devRef .tc main_arg2)) := by
  after_results
  funext i
  obtain ⟨a, b, n, rfl⟩ : ∃ (a : Fin 16) (b : Fin 128) (n : Fin 16384), i = ix3 a b n := ⟨i 0, i 1, i 2, eq_ix3 i⟩
  exact stack3_apply (A := 16) (B := 128) (L := 8192) (L2 := 16384) rfl _ _ _ _ _ a b n (half rfl n) rfl

theorem kept2_arg0 : after ops2 W (Proc.devRef .tc main_arg0) = W (Proc.devRef .tc main_arg0) := by after_results
theorem kept2_arg1 : after ops2 W (Proc.devRef .tc main_arg1) = W (Proc.devRef .tc main_arg1) := by after_results
theorem kept2_arg2 : after ops2 W (Proc.devRef .tc main_arg2) = W (Proc.devRef .tc main_arg2) := by after_results
theorem kept2_arg3 : after ops2 W (Proc.devRef .tc main_arg3) = W (Proc.devRef .tc main_arg3) := by after_results

/-- The third dozen leaves in `%29` one level of what `%19` and argument 1 hold. -/
theorem stage3 : after ops3 W (Proc.devRef .tc main_v29)
    = level (A := 16) (B := 128) (L := 16384) (L2 := 32768) rfl (W (Proc.devRef .tc main_v19)) (W (Proc.devRef .tc main_arg1)) := by
  after_results
  funext i
  obtain ⟨a, b, n, rfl⟩ : ∃ (a : Fin 16) (b : Fin 128) (n : Fin 32768), i = ix3 a b n := ⟨i 0, i 1, i 2, eq_ix3 i⟩
  exact stack3_apply (A := 16) (B := 128) (L := 16384) (L2 := 32768) rfl _ _ _ _ _ a b n (half rfl n) rfl

theorem kept3_arg0 : after ops3 W (Proc.devRef .tc main_arg0) = W (Proc.devRef .tc main_arg0) := by after_results
theorem kept3_arg1 : after ops3 W (Proc.devRef .tc main_arg1) = W (Proc.devRef .tc main_arg1) := by after_results
theorem kept3_arg2 : after ops3 W (Proc.devRef .tc main_arg2) = W (Proc.devRef .tc main_arg2) := by after_results
theorem kept3_arg3 : after ops3 W (Proc.devRef .tc main_arg3) = W (Proc.devRef .tc main_arg3) := by after_results

/-- THE 36 OPERATIONS leave in `%29` the transform of what the four arguments hold. -/
theorem result_eq : after ops W (Proc.devRef .tc main_v29)
    = synth (A := 16) (B := 128) (W (Proc.devRef .tc main_arg0)) (W (Proc.devRef .tc main_arg3))
        (W (Proc.devRef .tc main_arg2)) (W (Proc.devRef .tc main_arg1)) := by
  rw [after_append, after_append, stage3, stage2, kept2_arg1, stage1, kept1_arg2, kept1_arg1]
  rfl

theorem kept_arg0 : after ops W (Proc.devRef .tc main_arg0) = W (Proc.devRef .tc main_arg0) := by
  rw [after_append, after_append, kept3_arg0, kept2_arg0, kept1_arg0]
theorem kept_arg1 : after ops W (Proc.devRef .tc main_arg1) = W (Proc.devRef .tc main_arg1) := by
  rw [after_append, after_append, kept3_arg1, kept2_arg1, kept1_arg1]
theorem kept_arg2 : after ops W (Proc.devRef .tc main_arg2) = W (Proc.devRef .tc main_arg2) := by
  rw [after_append, after_append, kept3_arg2, kept2_arg2, kept1_arg2]
theorem kept_arg3 : after ops W (Proc.devRef .tc main_arg3) = W (Proc.devRef .tc main_arg3) := by
  rw [after_append, after_append, kept3_arg3, kept2_arg3, kept1_arg3]

end Stages

/-! ## The run -/

/-- On every device, for any float values, from any memory with zero counters: every weakly fair execution of @main
    terminates with the result at the transform of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = synth (A := 16) (B := 128) (m ((c.tc : Thread nD τ).loc main_arg0)) (m ((c.tc : Thread nD τ).loc main_arg3))
            (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v29).trans (result_eq _),
      (h c main_arg0).trans (kept_arg0 _), (h c main_arg1).trans (kept_arg1 _),
      (h c main_arg2).trans (kept_arg2 _), (h c main_arg3).trans (kept_arg3 _)⟩)
    (run_seq scopedRefs_eq scopedSems_eq defs main (fun _ => ops) main_eq (fun _ => ops_sub) m ρ)

end Cert.ReferenceIdeal.RefRun

end
-- ==== Proof.lean ====
/-
  The kernel and its reference compute ONE function of the four arguments, the three-level inverse Haar transform
  (Proof/Synthesis.lean `synth`): at each level position `n` of an axis twice as long holds `(lo + hi) · s` of the two
  entries at `n / 2` when `n` is even and `(lo − hi) · s` when `n` is odd, `s` the f32 word nearest `2^(-1/2)` — the same
  word in both programs, at all six places. The same sums, differences and products at the same positions: no law of the
  extended reals is used, and the precondition (finite inputs) is never opened.

    frame_Kernel, frame_KernelIdeal — the kernel's run: the pipeline over the 16 × 4 grid, the body once per point.
    frame_ReferenceIdeal — the reference's run with its result dropped.
    preserves_Kernel_KernelIdeal — the idealization rewrote nothing: `True`.
    algebraic_KernelIdeal_ReferenceIdeal — the kernel's result array is the transform of its argument arrays
      (Proof/ArrayValue.lean: the body's three stored values are the three levels of the staged blocks,
      Proof/BodyValue.lean; the transform acts along the last axis, so the blocks' transforms are the blocks of the
      arrays' transform; the 64 blocks cover the result), and so is the reference's result (Proof/RefRun.lean: each
      `stack(...).reshape` is one level, its twelve host operations read over any contents). Both interleavings are read at an index by Proof/LibInterleave.lean.
-/
import proofs.«119759_j7825430413852_2_alg».proof.Defs
import proofs.«119759_j7825430413852_2_alg».proof.Proof.Gen.Kernel
import proofs.«119759_j7825430413852_2_alg».proof.Proof.Gen.Kernel.Frame
import proofs.«119759_j7825430413852_2_alg».proof.Proof.Gen.KernelIdeal
import proofs.«119759_j7825430413852_2_alg».proof.Proof.Gen.KernelIdeal.Frame
import proofs.«119759_j7825430413852_2_alg».proof.Proof.Gen.KernelIdeal.Value
import proofs.«119759_j7825430413852_2_alg».proof.Proof.Gen.ReferenceIdeal
import proofs.«119759_j7825430413852_2_alg».proof.Proof.Gen.Pre_finite_inputs
import proofs.«119759_j7825430413852_2_alg».proof.Proof.ArrayValue
import proofs.«119759_j7825430413852_2_alg».proof.Proof.RefRun

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result at the transform of the arguments' launch contents, and the two memories agree on the
    arguments. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
